-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S5000x128 : Shape := ⟨2, ![5000, 128]⟩

abbrev nBuf : Space → Nat
  | .hbm => 68
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S100000, .f32⟩
  | .hbm, ⟨18, _⟩ => ⟨S600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S100000x128, .f32⟩
  | .hbm, ⟨57, _⟩ => ⟨S600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S128x128, .f32⟩
  | .hbm, ⟨62, _⟩ => ⟨S128x128, .f32⟩
  | .hbm, ⟨63, _⟩ => ⟨S1x128, .f32⟩
  | .hbm, ⟨64, _⟩ => ⟨S128x128, .f32⟩
  | .hbm, ⟨65, _⟩ => ⟨S1x128, .f32⟩
  | .hbm, ⟨66, _⟩ => ⟨S100000x128, .f32⟩
  | .hbm, ⟨67, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46_0 : Ref sig .tc := ⟨.hbm, 66, rfl⟩
abbrev main_v46_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v46_1) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S100000x128, .f32⟩
  | .hbm, ⟨25, _⟩ => ⟨S600000x1, .i32⟩
  | .hbm, ⟨26, _⟩ => ⟨S100000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S100000, .f32⟩
  | .hbm, ⟨31, _⟩ => ⟨S600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S100000x128, .f32⟩
  | .hbm, ⟨61, _⟩ => ⟨S600000x1, .i32⟩
  | .hbm, ⟨62, _⟩ => ⟨S100000x128, .f32⟩
  | .hbm, ⟨63, _⟩ => ⟨S_, .f32⟩
  | .hbm, ⟨64, _⟩ => ⟨S600000, .f32⟩
  | .hbm, ⟨65, _⟩ => ⟨S_, .f32⟩
  | .hbm, ⟨66, _⟩ => ⟨S100000, .f32⟩
  | .hbm, ⟨67, _⟩ => ⟨S600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its buffers named.

  The program is four segments: the host operations before the first layer's kernel, that kernel over its 20 row
  blocks, the host operations between the two kernels, and the second kernel over its 20 row blocks.  Every weakly
  fair execution terminates, and in every final state each buffer that is not a staging buffer holds the last
  boundary's contents: the fold of the four segments from the launch memory.
-/
import proofs.«128573_j55937654063700_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- A buffer that is not a staging buffer, read in a final state. -/
theorem read_final {r : PUnit × MemSt nD τ sig (Elt F)}
    (h : ∀ c : Dev nD, ∀ b ∈ Pipeline.ucRefs τ sig, r.2.mem (((c : Thread nD τ)).1, b) = W4 m ρ c b)
    (c : Dev nD) (b : Ref sig .tc) (hb : ¬ (Proc.devRef .tc b : DevRef τ sig).isScoped) :
    r.2.mem ((c.tc : Thread nD τ).loc b) = W4 m ρ c (Proc.devRef .tc b) :=
  h c _ (mem_uc b hb)

end Cert.KernelIdeal.KRun

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.SageLayer.lean ====
/-
  One layer of a GraphSAGE network on the extended reals, entry by entry.

  For node features `X : [N, 128]`, aggregated neighbour features `A : [N, 128]`, two weight matrices already
  transposed to `[in, out]` layout and a bias vector, the layer's entry `(r, j)` is

      (∑_q A(r, q) · Wl(q, j)  +  ∑_q X(r, q) · Wr(q, j))  +  b(j),

  the rectifier is `max · 0` entry by entry, and the linear decoder's entry is `∑_q H(r, q) · Wd(q, j) + b(j)`.
  The host program spells the layer as two `dot_general`s and a bias broadcast in two steps, added in the order
  `(A·Wl + b) + X·Wr`; addition on the extended reals is commutative and associative, so this is the same entry.
-/
import Idealize.ShloMosaic.Lib.ValueIdx
import Idealize.ShloMosaic.Lib.ValueLayout
import Idealize.ShloMosaic.Lib.Pipeline.Value
import Idealize.ShloMosaic.PureOps.Ideal.Laws
import proofs.«128573_j55937654063700_1_alg».proof.Proof.LibPlainDot

noncomputable section

namespace Cert.Sage

open Idealize.ShloMosaic Idealize.ShloMosaic.ValueIdx

/-- Node-feature arrays, weight matrices, one-row bias blocks and bias vectors. -/
abbrev SN : Shape := ⟨2, ![100000, 128]⟩
abbrev SW : Shape := ⟨2, ![128, 128]⟩
abbrev SB : Shape := ⟨2, ![1, 128]⟩
abbrev SV : Shape := ⟨1, ![128]⟩

/-- One SAGE layer before the rectifier: the aggregated features through `Wl`, the node's own through `Wr`, plus the bias. -/
def layer (A X : SN.Idx → EReal) (Wl Wr : SW.Idx → EReal) (b : SV.Idx → EReal) : SN.Idx → EReal :=
  fun i => (∑ q : Fin 128, A (ix2 (i 0) q) * Wl (ix2 q (i 1)) + ∑ q : Fin 128, X (ix2 (i 0) q) * Wr (ix2 q (i 1)))
    + b (ix1 (i 1))

/-- The rectifier, entry by entry. -/
def relu (Y : SN.Idx → EReal) : SN.Idx → EReal := fun i => max (Y i) 0

/-- The linear decoder. -/
def decode (H : SN.Idx → EReal) (Wd : SW.Idx → EReal) (b : SV.Idx → EReal) : SN.Idx → EReal :=
  fun i => (∑ q : Fin 128, H (ix2 (i 0) q) * Wd (ix2 q (i 1))) + b (ix1 (i 1))

theorem layer_ix2 (A X : SN.Idx → EReal) (Wl Wr : SW.Idx → EReal) (b : SV.Idx → EReal) (r : Fin 100000) (j : Fin 128) :
    layer A X Wl Wr b (ix2 r j)
      = (∑ q : Fin 128, A (ix2 r q) * Wl (ix2 q j) + ∑ q : Fin 128, X (ix2 r q) * Wr (ix2 q j)) + b (ix1 j) := rfl

theorem decode_ix2 (H : SN.Idx → EReal) (Wd : SW.Idx → EReal) (b : SV.Idx → EReal) (r : Fin 100000) (j : Fin 128) :
    decode H Wd b (ix2 r j) = (∑ q : Fin 128, H (ix2 r q) * Wd (ix2 q j)) + b (ix1 j) := rfl

/-- A bias vector broadcast to one row and then down all rows reads, at `(r, j)`, the vector at `j`. -/
theorem bias_rows {α : Type} (b : SV.Idx → α) (h1 : SV.BroadcastsInDim SB ![1]) (h2 : SB.BroadcastsInDim SN ![0, 1])
    (r : Fin 100000) (j : Fin 128) :
    broadcastInDim SN ![0, 1] h2 (broadcastInDim SB ![1] h1 b) (ix2 r j) = b (ix1 j) := by
  rw [broadcastInDim_apply ![0, 1] h2 _ (ix2 r j) (ix2 (0 : Fin 1) j) (fun a => by
      match a with
      | ⟨0, _⟩ => rfl
      | ⟨1, _⟩ => rfl),
    broadcastInDim_apply ![1] h1 b (ix2 (0 : Fin 1) j) (ix1 j) (fun a => by
      match a with
      | ⟨0, _⟩ => rfl)]

/-- The host's spelling of a layer — `(A·Wl + b) + X·Wr` with the bias broadcast in two steps — is `layer`. -/
theorem host_layer (D : DotDims SN SW SN) (hD : D = DotDims.plain 100000 128 128)
    (A X : FVec Ideal SN .f32) (Wl Wr : FVec Ideal SW .f32) (b : FVec Ideal SV .f32)
    (h1 : SV.BroadcastsInDim SB ![1]) (h2 : SB.BroadcastsInDim SN ![0, 1]) :
    addf (addf (Host.dotGeneral D none A Wl) (broadcastInDim SN ![0, 1] h2 (broadcastInDim SB ![1] h1 b)))
        (Host.dotGeneral D none X Wr)
      = layer A X Wl Wr b := by
  funext i
  obtain ⟨r, j, rfl⟩ : ∃ (r : Fin 100000) (j : Fin 128), i = ix2 r j := ⟨i 0, i 1, eq_ix2 i⟩
  rw [layer_ix2]
  show (Host.dotGeneral D none A Wl (ix2 r j) + broadcastInDim SN ![0, 1] h2 (broadcastInDim SB ![1] h1 b) (ix2 r j))
      + Host.dotGeneral D none X Wr (ix2 r j) = _
  rw [Cert.PlainDot.dotGeneral_ix2 D hD none A Wl r j, Cert.PlainDot.dotGeneral_ix2 D hD none X Wr r j, bias_rows]
  exact add_right_comm _ _ _

/-- The host's spelling of the decoder is `decode`. -/
theorem host_decode (D : DotDims SN SW SN) (hD : D = DotDims.plain 100000 128 128)
    (H : FVec Ideal SN .f32) (Wd : FVec Ideal SW .f32) (b : FVec Ideal SV .f32)
    (h1 : SV.BroadcastsInDim SB ![1]) (h2 : SB.BroadcastsInDim SN ![0, 1]) :
    addf (Host.dotGeneral D none H Wd) (broadcastInDim SN ![0, 1] h2 (broadcastInDim SB ![1] h1 b)) = decode H Wd b := by
  funext i
  obtain ⟨r, j, rfl⟩ : ∃ (r : Fin 100000) (j : Fin 128), i = ix2 r j := ⟨i 0, i 1, eq_ix2 i⟩
  rw [decode_ix2]
  show Host.dotGeneral D none H Wd (ix2 r j) + broadcastInDim SN ![0, 1] h2 (broadcastInDim SB ![1] h1 b) (ix2 r j) = _
  rw [Cert.PlainDot.dotGeneral_ix2 D hD none H Wd r j, bias_rows]

/-- The host's rectifier — the maximum with a broadcast zero — is `relu`. -/
theorem host_relu (h0 : (⟨0, ![]⟩ : Shape).BroadcastsInDim SN ![]) (Y : FVec Ideal SN .f32) :
    maximumf Y (broadcastInDim SN ![] h0 (constant (F := Ideal) ⟨0, ![]⟩ .f32 0x00000000#32)) = relu Y := by
  funext i
  show max (Y i) (Ideal.ofBits .f32 0x00000000#32) = max (Y i) 0
  rw [Ideal.ofBits_zero_f32]

end Cert.Sage

end
-- ==== Proof.Payload.lean ====
/-
  What the two kernel bodies store, read at an entry.

  On the extended reals a change of float format is the identity and a product into a zero accumulator is the
  plain sum of products, so the first body stores, at row `p` and column `j` of its block,

      max ((∑_q a(p, q) · wl(q, j) + ∑_q x(p, q) · wr(q, j)) + b(0, j)) 0,

  the second body stores the same without the rectifier, and then that block through the decoder's weights plus
  the decoder's one-row bias.
-/
import proofs.«128573_j55937654063700_1_alg».proof.Proof.Gen.KernelIdeal.Skeleton
import proofs.«128573_j55937654063700_1_alg».proof.Proof.LibPlainDot
import proofs.«128573_j55937654063700_1_alg».proof.Proof.SageLayer
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen

/-- The two matrix products and the bias row of a block, at `(p, j)`. -/
def blockLayer (a x : Vec Ideal S5000x128 .f32) (wl wr : Vec Ideal S128x128 .f32) (b : Vec Ideal S1x128 .f32)
    (p : Fin 5000) (j : Fin 128) : EReal :=
  (∑ q : Fin 128, a (ix2 p q) * wl (ix2 q j) + ∑ q : Fin 128, x (ix2 p q) * wr (ix2 q j)) + b (ix2 (0 : Fin 1) j)

/-- The second body's first store: a layer's block without the rectifier. -/
theorem pay_conv (v0 v3 : Vec Ideal S5000x128 .f32) (v6 v9 : Vec Ideal S128x128 .f32) (v15 : Vec Ideal S1x128 .f32)
    (p : Fin 5000) (j : Fin 128) :
    k1_pay1 (F := Ideal) v0 v3 v6 v9 v15 (ix2 p j) = blockLayer v0 v3 v6 v9 v15 p j := by
  unfold k1_pay1 blockLayer
  show matmul (F := Ideal) dot_S5000x128_S128x128_S5000x128_1_0_0_1_n_n none
        (truncf (F := Ideal) .bf16 (shapeCast S5000x128 v0 shapeCasts_S5000x128_S5000x128) bitsLt_bf16_f32)
        (truncf (F := Ideal) .bf16 (shapeCast S128x128 v6 shapeCasts_S128x128_S128x128) bitsLt_bf16_f32)
        (constant (F := Ideal) S5000x128 .f32 0x00000000#32) (ix2 p j)
      + matmul (F := Ideal) dot_S5000x128_S128x128_S5000x128_1_0_0_1_n_n none
        (truncf (F := Ideal) .bf16 (shapeCast S5000x128 v3 shapeCasts_S5000x128_S5000x128) bitsLt_bf16_f32)
        (truncf (F := Ideal) .bf16 (shapeCast S128x128 v9 shapeCasts_S128x128_S128x128) bitsLt_bf16_f32)
        (constant (F := Ideal) S5000x128 .f32 0x00000000#32) (ix2 p j)
      + broadcastTo S5000x128 (shapeCast S1x128 v15 shapeCasts_S1x128_S1x128) broadcasts_S1x128_S5000x128 (ix2 p j) = _
  rw [Cert.PlainDot.matmul_zero_ix2 dot_S5000x128_S128x128_S5000x128_1_0_0_1_n_n rfl, Cert.PlainDot.matmul_zero_ix2 dot_S5000x128_S128x128_S5000x128_1_0_0_1_n_n rfl, broadcastTo_1b_ab_apply]
  simp only [shapeCast_self]
  rfl

/-- The first body's store: a layer's block through the rectifier. -/
theorem pay_sage1 (v0 v3 : Vec Ideal S5000x128 .f32) (v5 v8 : Vec Ideal S128x128 .f32) (v14 : Vec Ideal S1x128 .f32)
    (p : Fin 5000) (j : Fin 128) :
    k0_pay1 (F := Ideal) v0 v3 v5 v8 v14 (ix2 p j) = max (blockLayer v0 v3 v5 v8 v14 p j) 0 := by
  unfold k0_pay1 blockLayer
  show max (matmul (F := Ideal) dot_S5000x128_S128x128_S5000x128_1_0_0_1_n_n none
        (truncf (F := Ideal) .bf16 (shapeCast S5000x128 v0 shapeCasts_S5000x128_S5000x128) bitsLt_bf16_f32)
        (truncf (F := Ideal) .bf16 (shapeCast S128x128 v5 shapeCasts_S128x128_S128x128) bitsLt_bf16_f32)
        (constant (F := Ideal) S5000x128 .f32 0x00000000#32) (ix2 p j)
      + matmul (F := Ideal) dot_S5000x128_S128x128_S5000x128_1_0_0_1_n_n none
        (truncf (F := Ideal) .bf16 v3 bitsLt_bf16_f32)
        (truncf (F := Ideal) .bf16 (shapeCast S128x128 v8 shapeCasts_S128x128_S128x128) bitsLt_bf16_f32)
        (constant (F := Ideal) S5000x128 .f32 0x00000000#32) (ix2 p j)
      + broadcastTo S5000x128 (shapeCast S1x128 v14 shapeCasts_S1x128_S1x128) broadcasts_S1x128_S5000x128 (ix2 p j))
      (Ideal.ofBits .f32 0x00000000#32) = _
  rw [Cert.PlainDot.matmul_zero_ix2 dot_S5000x128_S128x128_S5000x128_1_0_0_1_n_n rfl, Cert.PlainDot.matmul_zero_ix2 dot_S5000x128_S128x128_S5000x128_1_0_0_1_n_n rfl, broadcastTo_1b_ab_apply,
    Ideal.ofBits_zero_f32]
  simp only [shapeCast_self]
  rfl

/-- The second body's second store: the layer's block through the decoder. -/
theorem pay_decode (v0 v3 : Vec Ideal S5000x128 .f32) (v6 v9 : Vec Ideal S128x128 .f32) (v15 : Vec Ideal S1x128 .f32)
    (v21 : Vec Ideal S128x128 .f32) (v25 : Vec Ideal S1x128 .f32) (p : Fin 5000) (j : Fin 128) :
    k1_pay2 (F := Ideal) v0 v3 v6 v9 v15 v21 v25 (ix2 p j)
      = (∑ q : Fin 128, blockLayer v0 v3 v6 v9 v15 p q * v21 (ix2 q j)) + v25 (ix2 (0 : Fin 1) j) := by
  unfold k1_pay2
  show matmul (F := Ideal) dot_S5000x128_S128x128_S5000x128_1_0_0_1_n_n none
        (truncf (F := Ideal) .bf16 (k1_pay1 (F := Ideal) v0 v3 v6 v9 v15) bitsLt_bf16_f32)
        (truncf (F := Ideal) .bf16 (shapeCast S128x128 v21 shapeCasts_S128x128_S128x128) bitsLt_bf16_f32)
        (constant (F := Ideal) S5000x128 .f32 0x00000000#32) (ix2 p j)
      + broadcastTo S5000x128 (shapeCast S1x128 v25 shapeCasts_S1x128_S1x128) broadcasts_S1x128_S5000x128 (ix2 p j) = _
  rw [Cert.PlainDot.matmul_zero_ix2 dot_S5000x128_S128x128_S5000x128_1_0_0_1_n_n rfl, broadcastTo_1b_ab_apply]
  simp only [shapeCast_self]
  refine congrArg (· + v25 (ix2 (0 : Fin 1) j)) (Finset.sum_congr rfl fun q _ => ?_)
  show k1_pay1 (F := Ideal) v0 v3 v6 v9 v15 (ix2 p q) * v21 (ix2 q j) = _
  rw [pay_conv]

/-- A one-row bias block as a vector: its only row. -/
def rowVec (B : (⟨2, ![1, 128]⟩ : Shape).Idx → EReal) : (⟨1, ![128]⟩ : Shape).Idx → EReal :=
  fun k => B (ix2 (0 : Fin 1) (k 0 : Fin 128))

/-- A one-row block cast from a vector has that vector as its row. -/
theorem rowVec_shapeCast (b : (⟨1, ![128]⟩ : Shape).Idx → EReal) (h : (⟨1, ![128]⟩ : Shape).ShapeCasts ⟨2, ![1, 128]⟩) :
    rowVec (shapeCast ⟨2, ![1, 128]⟩ b h) = b := by
  funext k
  obtain ⟨j, rfl⟩ : ∃ j : Fin 128, k = ix1 j := ⟨k 0, eq_ix1 k⟩
  exact shapeCast_a_1a_apply b h 0 j

/-- A block of rows read out of whole arrays: when row `p` of the two row blocks is row `r` of the arrays and the
    weight and bias blocks are the whole weight and bias arrays, the block's layer entry `(p, j)` is the arrays' `(r, j)`. -/
theorem blockLayer_eq_layer (a x : Vec Ideal S5000x128 .f32) (wl wr : Vec Ideal S128x128 .f32) (b : Vec Ideal S1x128 .f32)
    (A X : Cert.Sage.SN.Idx → EReal) (Wl Wr : Cert.Sage.SW.Idx → EReal) (B : Cert.Sage.SB.Idx → EReal)
    (p : Fin 5000) (j : Fin 128) (r : Fin 100000)
    (ha : ∀ q : Fin 128, a (ix2 p q) = A (ix2 r q)) (hx : ∀ q : Fin 128, x (ix2 p q) = X (ix2 r q))
    (hwl : ∀ q : Fin 128, wl (ix2 q j) = Wl (ix2 q j)) (hwr : ∀ q : Fin 128, wr (ix2 q j) = Wr (ix2 q j))
    (hb : b (ix2 (0 : Fin 1) j) = B (ix2 (0 : Fin 1) j)) :
    blockLayer a x wl wr b p j = Cert.Sage.layer A X Wl Wr (rowVec B) (ix2 r j) := by
  rw [Cert.Sage.layer_ix2]
  unfold blockLayer
  simp only [ha, hx, hwl, hwr, hb]
  rfl

end Cert.KernelIdeal.Payload

end
-- ==== Proof.Region0.lean ====
/-
  The first kernel's output array.

  Its grid has 20 points; point `t` reads rows `5000·t … 5000·t + 4999` of the aggregated features and of the node
  features, the whole of both weight matrices and of the bias row, and writes back rows `5000·t …` of the output.
  What it writes is the rectified layer of exactly those rows, so every write-back is a block of ONE function of the
  arrays as the kernel finds them, and the 20 blocks cover all 100000 rows.
-/
import proofs.«128573_j55937654063700_1_alg».proof.Proof.Gen.KernelIdeal.Frame
import proofs.«128573_j55937654063700_1_alg».proof.Proof.Payload

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The first layer, rectified, of the arrays as the kernel finds them. -/
def G (c : Dev nD) : S100000x128.Idx → EReal :=
  Cert.Sage.relu (Cert.Sage.layer (V c main_v24) (V c main_arg0) (V c main_v25) (V c main_v26) (rowVec (V c main_v27)))

/-- The printed index maps over the grid: the row windows are at block row `t`, the weights and bias at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  obtain ⟨p, j, rfl⟩ : ∃ (p : Fin 5000) (j : Fin 128), y = ix2 p j := ⟨y 0, y 1, eq_ix2 y⟩
  have ht : t.val < 20 := by have h := t.isLt; have e : cfg0.N = 20 := N_0; omega
  have hrlt : t.val * 5000 + p.val < 100000 := by have := p.isLt; omega
  show k0_pay1 (F := Ideal) (iblk0 V c 0 t) (iblk0 V c 1 t) (iblk0 V c 2 t) (iblk0 V c 4 t) (iblk0 V c 3 t) (ix2 p j)
      = G V c (((cfg0.win 5).blk t).view.emb (ix2 p j))
  have hout : (((cfg0.win 5).blk t).view.emb (ix2 p j) : S100000x128.Idx) = ix2 (⟨t.val * 5000 + p.val, hrlt⟩ : Fin 100000) j := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * j.val = j.val; omega
  rw [hout]
  refine (pay_sage1 (iblk0 V c 0 t) (iblk0 V c 1 t) (iblk0 V c 2 t) (iblk0 V c 4 t) (iblk0 V c 3 t) p j).trans ?_
  show _ = max (Cert.Sage.layer (V c main_v24) (V c main_arg0) (V c main_v25) (V c main_v26) (rowVec (V c main_v27))
      (ix2 (⟨t.val * 5000 + p.val, hrlt⟩ : Fin 100000) j)) 0
  refine congrArg (max · 0) ?_
  refine blockLayer_eq_layer (iblk0 V c 0 t) (iblk0 V c 1 t) (iblk0 V c 2 t) (iblk0 V c 4 t) (iblk0 V c 3 t)
    (V c main_v24) (V c main_arg0) (V c main_v25) (V c main_v26) (V c main_v27) p j ⟨t.val * 5000 + p.val, hrlt⟩ ?_ ?_ ?_ ?_ ?_
  · intro q
    show V c main_v24 (((cfg0.win 0).blk t).view.emb (ix2 p q)) = V c main_v24 (ix2 (⟨t.val * 5000 + p.val, hrlt⟩ : Fin 100000) q)
    refine congrArg (V c main_v24) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * q.val = q.val; omega
  · intro q
    show V c main_arg0 (((cfg0.win 1).blk t).view.emb (ix2 p q)) = V c main_arg0 (ix2 (⟨t.val * 5000 + p.val, hrlt⟩ : Fin 100000) q)
    refine congrArg (V c main_arg0) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * q.val = q.val; omega
  · intro q
    show V c main_v25 (((cfg0.win 2).blk t).view.emb (ix2 q j)) = V c main_v25 (ix2 q j)
    refine congrArg (V c main_v25) (funext fun a => Fin.ext ?_)
    match a with
    | ⟨0, _⟩ => show win0_2.index t (0 : Fin 2) * 128 + 1 * q.val = q.val; omega
    | ⟨1, _⟩ => show win0_2.index t (1 : Fin 2) * 128 + 1 * j.val = j.val; omega
  · intro q
    show V c main_v26 (((cfg0.win 4).blk t).view.emb (ix2 q j)) = V c main_v26 (ix2 q j)
    refine congrArg (V c main_v26) (funext fun a => Fin.ext ?_)
    match a with
    | ⟨0, _⟩ => show win0_4.index t (0 : Fin 2) * 128 + 1 * q.val = q.val; omega
    | ⟨1, _⟩ => show win0_4.index t (1 : Fin 2) * 128 + 1 * j.val = j.val; omega
  · show V c main_v27 (((cfg0.win 3).blk t).view.emb (ix2 (0 : Fin 1) j)) = V c main_v27 (ix2 (0 : Fin 1) j)
    refine congrArg (V c main_v27) (funext fun a => Fin.ext ?_)
    match a with
    | ⟨0, _⟩ => show win0_3.index t (0 : Fin 2) * 1 + 1 * 0 = 0; omega
    | ⟨1, _⟩ => show win0_3.index t (1 : Fin 2) * 128 + 1 * j.val = j.val; omega

/-- An index of the output array is in point `t`'s block iff each coordinate is in the block's range. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- The 20 blocks cover the output array. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the kernel: the rectified layer of the arrays as the kernel finds them. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.Region1.lean ====
/-
  The second kernel's two output arrays.

  As in the first kernel, point `t` of the 20-point grid reads rows `5000·t …` of the aggregated hidden features and of
  the hidden features themselves and the whole of the weights and bias rows.  Its first write-back is the second
  layer of those rows (no rectifier); its second is that same block through the decoder's weights plus the decoder's
  bias row, so entry `(r, j)` of the second output is the decoder applied to row `r` of the first.
-/
import proofs.«128573_j55937654063700_1_alg».proof.Proof.Gen.KernelIdeal.Frame
import proofs.«128573_j55937654063700_1_alg».proof.Proof.Payload

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The second layer of the arrays as the kernel finds them. -/
def Gh (c : Dev nD) : S100000x128.Idx → EReal :=
  Cert.Sage.layer (V c main_v40) (V c main_v28) (V c main_v41) (V c main_v42) (rowVec (V c main_v43))

/-- The decoder of the second layer. -/
def Gd (c : Dev nD) : S100000x128.Idx → EReal :=
  Cert.Sage.decode (Gh V c) (V c main_v44) (rowVec (V c main_v45))

/-- The printed index maps over the grid: the row windows are at block row `t`, the weights and biases at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Every block row is some point's, for each output. -/
theorem idx_onto7 : ∀ q0 : Fin 20, ∃ t : Fin cfg1.N, win1_7.index t = ![q0.val, 0] :=
  (by decide +kernel : ∀ q0 : Fin 20, ∃ t : Fin grid1.N, win1_7.index t = ![q0.val, 0])
theorem idx_onto8 : ∀ q0 : Fin 20, ∃ t : Fin cfg1.N, win1_8.index t = ![q0.val, 0] :=
  (by decide +kernel : ∀ q0 : Fin 20, ∃ t : Fin grid1.N, win1_8.index t = ![q0.val, 0])

/-- Row `p` of point `t`'s blocks is row `5000·t + p` of the arrays: the block's layer entry is the arrays'. -/
theorem block_rows (c : Dev nD) (t : Fin cfg1.N) (p : Fin 5000) (j : Fin 128) (hrlt : t.val * 5000 + p.val < 100000) :
    blockLayer (iblk1 V c 0 t) (iblk1 V c 1 t) (iblk1 V c 2 t) (iblk1 V c 4 t) (iblk1 V c 3 t) p j
      = Gh V c (ix2 (⟨t.val * 5000 + p.val, hrlt⟩ : Fin 100000) j) := by
  obtain ⟨e00, e01, e10, e11, e20, e21, e30, e31, e40, e41, e50, e51, e60, e61, e70, e71, e80, e81⟩ := idx_facts t
  refine blockLayer_eq_layer (iblk1 V c 0 t) (iblk1 V c 1 t) (iblk1 V c 2 t) (iblk1 V c 4 t) (iblk1 V c 3 t)
    (V c main_v40) (V c main_v28) (V c main_v41) (V c main_v42) (V c main_v43) p j ⟨t.val * 5000 + p.val, hrlt⟩ ?_ ?_ ?_ ?_ ?_
  · intro q
    show V c main_v40 (((cfg1.win 0).blk t).view.emb (ix2 p q)) = V c main_v40 (ix2 (⟨t.val * 5000 + p.val, hrlt⟩ : Fin 100000) q)
    refine congrArg (V c main_v40) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  · intro q
    show V c main_v28 (((cfg1.win 1).blk t).view.emb (ix2 p q)) = V c main_v28 (ix2 (⟨t.val * 5000 + p.val, hrlt⟩ : Fin 100000) q)
    refine congrArg (V c main_v28) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * q.val = q.val; omega
  · intro q
    show V c main_v41 (((cfg1.win 2).blk t).view.emb (ix2 q j)) = V c main_v41 (ix2 q j)
    refine congrArg (V c main_v41) (funext fun a => Fin.ext ?_)
    match a with
    | ⟨0, _⟩ => show win1_2.index t (0 : Fin 2) * 128 + 1 * q.val = q.val; omega
    | ⟨1, _⟩ => show win1_2.index t (1 : Fin 2) * 128 + 1 * j.val = j.val; omega
  · intro q
    show V c main_v42 (((cfg1.win 4).blk t).view.emb (ix2 q j)) = V c main_v42 (ix2 q j)
    refine congrArg (V c main_v42) (funext fun a => Fin.ext ?_)
    match a with
    | ⟨0, _⟩ => show win1_4.index t (0 : Fin 2) * 128 + 1 * q.val = q.val; omega
    | ⟨1, _⟩ => show win1_4.index t (1 : Fin 2) * 128 + 1 * j.val = j.val; omega
  ·
    show V c main_v43 (((cfg1.win 3).blk t).view.emb (ix2 (0 : Fin 1) j)) = V c main_v43 (ix2 (0 : Fin 1) j)
    refine congrArg (V c main_v43) (funext fun a => Fin.ext ?_)
    match a with
    | ⟨0, _⟩ => show win1_3.index t (0 : Fin 2) * 1 + 1 * 0 = 0; omega
    | ⟨1, _⟩ => show win1_3.index t (1 : Fin 2) * 128 + 1 * j.val = j.val; omega

/-- What point `t` writes back to the first output is block `t` of `Gh`. -/
theorem flushed7_eq (c : Dev nD) (t : Fin cfg1.N) :
    (dat1 V c).flushed 7 t = ((cfg1.win 7).blk t).view.read (Elt Ideal) (Gh V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61, e70, e71, e80, e81⟩ := idx_facts t
  funext y
  obtain ⟨p, j, rfl⟩ : ∃ (p : Fin 5000) (j : Fin 128), y = ix2 p j := ⟨y 0, y 1, eq_ix2 y⟩
  have ht : t.val < 20 := by have h := t.isLt; have e : cfg1.N = 20 := N_1; omega
  have hrlt : t.val * 5000 + p.val < 100000 := by have := p.isLt; omega
  show k1_pay1 (F := Ideal) (iblk1 V c 0 t) (iblk1 V c 1 t) (iblk1 V c 2 t) (iblk1 V c 4 t) (iblk1 V c 3 t) (ix2 p j)
      = Gh V c (((cfg1.win 7).blk t).view.emb (ix2 p j))
  have hout : (((cfg1.win 7).blk t).view.emb (ix2 p j) : S100000x128.Idx) = ix2 (⟨t.val * 5000 + p.val, hrlt⟩ : Fin 100000) j := by
    funext a; apply Fin.ext
    match a with
    | ⟨0, _⟩ => show win1_7.index t (0 : Fin 2) * 5000 + 1 * p.val = t.val * 5000 + p.val; omega
    | ⟨1, _⟩ => show win1_7.index t (1 : Fin 2) * 128 + 1 * j.val = j.val; omega
  rw [hout]
  exact (pay_conv (iblk1 V c 0 t) (iblk1 V c 1 t) (iblk1 V c 2 t) (iblk1 V c 4 t) (iblk1 V c 3 t) p j).trans
    (block_rows V c t p j hrlt)

/-- What point `t` writes back to the second output is block `t` of `Gd`. -/
theorem flushed8_eq (c : Dev nD) (t : Fin cfg1.N) :
    (dat1 V c).flushed 8 t = ((cfg1.win 8).blk t).view.read (Elt Ideal) (Gd V c) := by
  show (cfg1.win 8).cut (grid1.coords t) ((dat1 V c).after 8 t) = _
  rw [after1_8]
  unfold out1_8
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61, e70, e71, e80, e81⟩ := idx_facts t
  funext y
  obtain ⟨p, j, rfl⟩ : ∃ (p : Fin 5000) (j : Fin 128), y = ix2 p j := ⟨y 0, y 1, eq_ix2 y⟩
  have ht : t.val < 20 := by have h := t.isLt; have e : cfg1.N = 20 := N_1; omega
  have hrlt : t.val * 5000 + p.val < 100000 := by have := p.isLt; omega
  show k1_pay2 (F := Ideal) (iblk1 V c 0 t) (iblk1 V c 1 t) (iblk1 V c 2 t) (iblk1 V c 4 t) (iblk1 V c 3 t)
        (iblk1 V c 5 t) (iblk1 V c 6 t) (ix2 p j)
      = Gd V c (((cfg1.win 8).blk t).view.emb (ix2 p j))
  have hout : (((cfg1.win 8).blk t).view.emb (ix2 p j) : S100000x128.Idx) = ix2 (⟨t.val * 5000 + p.val, hrlt⟩ : Fin 100000) j := by
    funext a; apply Fin.ext
    match a with
    | ⟨0, _⟩ => show win1_8.index t (0 : Fin 2) * 5000 + 1 * p.val = t.val * 5000 + p.val; omega
    | ⟨1, _⟩ => show win1_8.index t (1 : Fin 2) * 128 + 1 * j.val = j.val; omega
  rw [hout]
  refine (pay_decode (iblk1 V c 0 t) (iblk1 V c 1 t) (iblk1 V c 2 t) (iblk1 V c 4 t) (iblk1 V c 3 t)
    (iblk1 V c 5 t) (iblk1 V c 6 t) p j).trans ?_
  show _ = (∑ q : Fin 128, Gh V c (ix2 (⟨t.val * 5000 + p.val, hrlt⟩ : Fin 100000) q) * V c main_v44 (ix2 q j))
      + V c main_v45 (ix2 (0 : Fin 1) j)
  have hw : ∀ q : Fin 128, iblk1 V c 5 t (ix2 q j) = V c main_v44 (ix2 q j) := by
    intro q
    show V c main_v44 (((cfg1.win 5).blk t).view.emb (ix2 q j)) = V c main_v44 (ix2 q j)
    refine congrArg (V c main_v44) (funext fun a => Fin.ext ?_)
    match a with
    | ⟨0, _⟩ => show win1_5.index t (0 : Fin 2) * 128 + 1 * q.val = q.val; omega
    | ⟨1, _⟩ => show win1_5.index t (1 : Fin 2) * 128 + 1 * j.val = j.val; omega
  have hb : iblk1 V c 6 t (ix2 (0 : Fin 1) j) = V c main_v45 (ix2 (0 : Fin 1) j) := by
    show V c main_v45 (((cfg1.win 6).blk t).view.emb (ix2 (0 : Fin 1) j)) = V c main_v45 (ix2 (0 : Fin 1) j)
    refine congrArg (V c main_v45) (funext fun a => Fin.ext ?_)
    match a with
    | ⟨0, _⟩ => show win1_6.index t (0 : Fin 2) * 1 + 1 * 0 = 0; omega
    | ⟨1, _⟩ => show win1_6.index t (1 : Fin 2) * 128 + 1 * j.val = j.val; omega
  rw [hb]
  refine congrArg (· + V c main_v45 (ix2 (0 : Fin 1) j)) (Finset.sum_congr rfl fun q _ => ?_)
  rw [hw q, block_rows V c t p q hrlt]

/-- An index of output 7's array is in point `t`'s block iff each coordinate is in the block's range. -/
theorem mem_blk7 (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v46_0).slice (win1_7.rect t)).set ↔ _
  rw [View.set_slice_whole, Rect.mem_set_unit]
  exact Iff.rfl

/-- The 20 blocks cover it. -/
theorem cover7 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ := idx_onto7 ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- An index of output 8's array is in point `t`'s block iff each coordinate is in the block's range. -/
theorem mem_blk8 (t : Fin cfg1.N) (i : S100000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v46_1).slice (win1_8.rect t)).set ↔ _
  rw [View.set_slice_whole, Rect.mem_set_unit]
  exact Iff.rfl

/-- The 20 blocks cover it. -/
theorem cover8 (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  obtain ⟨t, ht⟩ := idx_onto8 ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_blk8]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 128 ≤ (i 1).val ∧ (i 1).val < win1_8.index t (1 : Fin 2) * 128 + 128; omega

/-- The two output arrays after the kernel. -/
theorem final7 (c : Dev nD) : (dat1 V c).arrAt 7 cfg1.N = Gh V c :=
  (dat1 V c).arrAt_eq_of_cover 7 (Gh V c) (fun t _ => flushed7_eq V c t) cover7
theorem final8 (c : Dev nD) : (dat1 V c).arrAt 8 cfg1.N = Gd V c :=
  (dat1 V c).arrAt_eq_of_cover 8 (Gd V c) (fun t _ => flushed8_eq V c t) cover8

end Cert.KernelIdeal.Region1

end
-- ==== Proof.DegreeScale.lean ====
/-
  Dividing by a node's degree, or multiplying by its reciprocal.

  The degree of a node is a scatter-add of ones into zeros: at each node, zero plus a finite sum of ones, a real
  number.  Its maximum with one is therefore a real number that is not zero, and for such a divisor `d` the
  quotient `S / d` and the product `S · (1 / d)` agree for every extended real `S`, the infinities included.
-/
import Idealize.ShloMosaic.PureOps.Ideal.Laws
import Idealize.ShloMosaic.Lib.ValueIdx

noncomputable section

namespace Cert.Sage.Degree

open Idealize.ShloMosaic

/-- The f32 word of one denotes the real number one. -/
theorem ofBits_one : Ideal.ofBits .f32 0x3F800000#32 = ((1 : ℝ) : EReal) := by
  rw [EReal.coe_one]
  simp [Ideal.ofBits, Ideal.ieee, -EReal.coe_mul]; norm_num

/-- A finite sum of reals is a real. -/
theorem sum_real {α : Type} (s : Finset α) (f : α → EReal) (h : ∀ a ∈ s, ∃ r : ℝ, f a = r) :
    ∃ r : ℝ, ∑ a ∈ s, f a = r := by
  classical
  induction s using Finset.induction_on with
  | empty => exact ⟨0, by simp⟩
  | insert a s ha ih =>
    obtain ⟨r1, h1⟩ := h a (Finset.mem_insert_self a s)
    obtain ⟨r2, h2⟩ := ih (fun b hb => h b (Finset.mem_insert_of_mem hb))
    exact ⟨r1 + r2, by rw [Finset.sum_insert ha, h1, h2, EReal.coe_add]⟩

/-- An accumulating scatter of real updates into a real operand is real at every index. -/
theorem scatterAdd_real {s si su : Shape} (d : ScatterDims s si su) {w : Nat} (x : FVec Ideal s .f32) (idx : IVec si w)
    (u : FVec Ideal su .f32) (hx : ∀ i, ∃ r : ℝ, x i = r) (hu : ∀ j, ∃ r : ℝ, u j = r) (k : s.Idx) :
    ∃ r : ℝ, Host.scatterAdd d x idx u k = r := by
  show ∃ r : ℝ, Ideal.hostScatterAdd d x idx u k = r
  unfold Ideal.hostScatterAdd
  obtain ⟨r1, h1⟩ := hx k
  obtain ⟨r2, h2⟩ := sum_real (Finset.univ.filter fun j => d.resultIdx? j idx = some k) u (fun j _ => hu j)
  exact ⟨r1 + r2, by rw [h1, h2, EReal.coe_add]⟩

/-- For a real `g`, the product with the reciprocal of `max g 1` is the quotient by `max g 1`, on every extended real. -/
theorem mul_recip_eq_div (S g : EReal) (hg : ∃ r : ℝ, g = r) :
    S * Ideal.div (Ideal.ofBits .f32 0x3F800000#32) (max g (Ideal.ofBits .f32 0x3F800000#32))
      = Ideal.div S (max g (Ideal.ofBits .f32 0x3F800000#32)) := by
  obtain ⟨r, rfl⟩ := hg
  have hm : max (r : EReal) ((1 : ℝ) : EReal) = ((max r 1 : ℝ) : EReal) :=
    (EReal.coe_strictMono.monotone.map_max).symm
  rw [ofBits_one, hm]
  have hne : (max r 1 : ℝ) ≠ 0 := by
    have := le_max_right r 1
    intro h0; rw [h0] at this; norm_num at this
  rw [Ideal.div_coe hne, Ideal.div_coe hne, EReal.coe_one, one_mul]

end Cert.Sage.Degree

end
-- ==== Proof.HostTerms.lean ====
/-
  The aggregation around the two kernels, as whole-array terms.

  From the edge list: the column of source rows (a negative number wrapped by the node count), the column of
  destination rows, and the degree vector, a scatter-add of ones.  From node features `X`: the sum over each node's
  incoming edges of the source's features, a gather followed by a scatter-add into zeros.  The mean divides that sum,
  row by row, by `max degree 1`; the kernel's program multiplies instead by the reciprocal `1 / max degree 1`.  Since
  the degree is a real number, the two are one array.
-/
import proofs.«128573_j55937654063700_1_alg».proof.Proof.Gen.KernelIdeal
import proofs.«128573_j55937654063700_1_alg».proof.Proof.DegreeScale

noncomputable section

namespace Cert.KernelIdeal.HostTerms

open Idealize.ShloMosaic Cert.KernelIdeal Cert.KernelIdeal.Gen

/-- Row `k` of the edge list as a vector. -/
def srcVec (E : IVec S2x600000 32) : IVec S600000 32 :=
  shapeCast S600000 (extractStridedSlice S1x600000 ![0, 0] E slices_S2x600000_S1x600000_0_0) shapeCasts_S1x600000_S600000
def dstVec (E : IVec S2x600000 32) : IVec S600000 32 :=
  shapeCast S600000 (extractStridedSlice S1x600000 ![1, 0] E slices_S2x600000_S1x600000_1_0) shapeCasts_S1x600000_S600000

/-- The source rows as a column of gather indices: a negative row number wrapped by the number of nodes. -/
def srcCol (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

/-- The destination rows as a column of scatter indices. -/
def dstCol (d : IVec S600000 32) : IVec S600000x1 32 :=
  broadcastInDim S600000x1 ![0] bcast_S600000_S600000x1_0 d

/-- The sum, over each node's incoming edges, of the source node's features. -/
def summed (s d : IVec S600000 32) (X : FVec Ideal S100000x128 .f32) : FVec Ideal S100000x128 .f32 :=
  Host.scatterAdd scatter_S100000x128_S600000x1_S600000x128_1_0_0_1
    (broadcastInDim S100000x128 ![] bcast_S_S100000x128 (constant (F := Ideal) S_ .f32 0x00000000#32)) (dstCol d)
    (Host.gather gather_S100000x128_S600000x1_S600000x128_1_0_n_n_0_1_1128 X (srcCol s))

/-- The number of incoming edges of each node. -/
def degree (d : IVec S600000 32) : FVec Ideal S100000 .f32 :=
  Host.scatterAdd scatter_S100000_S600000x1_S600000_n_0_0_1
    (broadcastInDim S100000 ![] bcast_S_S100000 (constant (F := Ideal) S_ .f32 0x00000000#32)) (dstCol d)
    (broadcastInDim S600000 ![] bcast_S_S600000 (constant (F := Ideal) S_ .f32 0x3F800000#32))

/-- … and its maximum with one. -/
def degree1 (d : IVec S600000 32) : FVec Ideal S100000 .f32 :=
  maximumf (degree d) (broadcastInDim S100000 ![] bcast_S_S100000 (constant (F := Ideal) S_ .f32 0x3F800000#32))

/-- The column of reciprocals `1 / max degree 1`. -/
def recipCol (d : IVec S600000 32) : FVec Ideal S100000x1 .f32 :=
  broadcastInDim S100000x1 ![0] bcast_S100000_S100000x1_0
    (Host.divf (broadcastInDim S100000 ![] bcast_S_S100000 (constant (F := Ideal) S_ .f32 0x3F800000#32)) (degree1 d))

/-- The mean over incoming edges as the kernel's program spells it: the sum times a column of factors. -/
def aggMul (s d : IVec S600000 32) (col : FVec Ideal S100000x1 .f32) (X : FVec Ideal S100000x128 .f32) :
    FVec Ideal S100000x128 .f32 :=
  mulf (summed s d X) (broadcastInDim S100000x128 ![0, 1] bcast_S100000x1_S100000x128_0_1 col)

/-- The mean over incoming edges as the reference spells it: the sum divided by `max degree 1`. -/
def aggDiv (s d : IVec S600000 32) (X : FVec Ideal S100000x128 .f32) : FVec Ideal S100000x128 .f32 :=
  Host.divf (summed s d X)
    (broadcastInDim S100000x128 ![0, 1] bcast_S100000x1_S100000x128_0_1
      (broadcastInDim S100000x1 ![0] bcast_S100000_S100000x1_0 (degree1 d)))

/-- The broadcast zero and the broadcast one are real at every index. -/
theorem zeros_real (i : S100000.Idx) :
    ∃ r : ℝ, broadcastInDim S100000 ![] bcast_S_S100000 (constant (F := Ideal) S_ .f32 0x00000000#32) i = r :=
  ⟨0, by
    simp only [broadcastInDim, constant, Ideal.ofBits_def]
    rw [Ideal.ofBits_zero_f32, EReal.coe_zero]⟩
theorem ones_real (j : S600000.Idx) :
    ∃ r : ℝ, broadcastInDim S600000 ![] bcast_S_S600000 (constant (F := Ideal) S_ .f32 0x3F800000#32) j = r :=
  ⟨1, by
    simp only [broadcastInDim, constant, Ideal.ofBits_def]
    exact Cert.Sage.Degree.ofBits_one⟩

/-- The degree is a real number at every node: zero plus a finite sum of ones. -/
theorem degree_real (d : IVec S600000 32) (k : S100000.Idx) : ∃ r : ℝ, degree d k = r :=
  Cert.Sage.Degree.scatterAdd_real scatter_S100000_S600000x1_S600000_n_0_0_1 _ (dstCol d) _ zeros_real ones_real k

/-- For ANY array of sums `S` and any real-valued vector `g`: the sums times the column of `1 / max g 1`, row by row,
    are the sums divided by the column of `max g 1`. -/
theorem scale_rows (S : FVec Ideal S100000x128 .f32) (g : FVec Ideal S100000 .f32) (hg : ∀ k, ∃ r : ℝ, g k = r) :
    mulf S (broadcastInDim S100000x128 ![0, 1] bcast_S100000x1_S100000x128_0_1
        (broadcastInDim S100000x1 ![0] bcast_S100000_S100000x1_0
          (Host.divf (broadcastInDim S100000 ![] bcast_S_S100000 (constant (F := Ideal) S_ .f32 0x3F800000#32))
            (maximumf g (broadcastInDim S100000 ![] bcast_S_S100000 (constant (F := Ideal) S_ .f32 0x3F800000#32))))))
      = Host.divf S (broadcastInDim S100000x128 ![0, 1] bcast_S100000x1_S100000x128_0_1
          (broadcastInDim S100000x1 ![0] bcast_S100000_S100000x1_0
            (maximumf g (broadcastInDim S100000 ![] bcast_S_S100000 (constant (F := Ideal) S_ .f32 0x3F800000#32))))) := by
  funext i
  simp only [mulf, Host.divf, maximumf, broadcastInDim, constant, Ideal.mulf_def, Ideal.hostDivf_def, Ideal.maximumf_def,
    Ideal.ofBits_def]
  exact Cert.Sage.Degree.mul_recip_eq_div _ _ (hg _)

/-- Multiplying the sums by the reciprocal column is dividing them by `max degree 1`. -/
theorem aggMul_recip (s d : IVec S600000 32) (X : FVec Ideal S100000x128 .f32) :
    aggMul s d (recipCol d) X = aggDiv s d X :=
  scale_rows (summed s d X) (degree d) (degree_real d)

/-- A weight matrix transposed to `[in, out]` layout, and a bias vector as one row. -/
def wT (W : FVec Ideal S128x128 .f32) : FVec Ideal S128x128 .f32 :=
  transpose S128x128 [1, 0] W transposes_S128x128_S128x128_1_0
def bRow (b : FVec Ideal S128 .f32) : FVec Ideal S1x128 .f32 :=
  shapeCast S1x128 b shapeCasts_S128_S1x128

end Cert.KernelIdeal.HostTerms

end
-- ==== Proof.KernelValue.lean ====
/-
  The idealized kernel's two results as functions of its arguments.

  The first kernel finds the mean-aggregated input features (the sums times the reciprocal column), the input
  features, the transposed first-layer weights and the bias as one row; it leaves the rectified first layer `H1`.
  The host operations between the kernels gather and scatter-add `H1` with the same two index columns and the same
  reciprocal column; the second kernel leaves the second layer `Hout` of that aggregate and `H1`, and the decoder
  `Dout` of `Hout`.
-/
import proofs.«128573_j55937654063700_1_alg».proof.Proof.KernelRun
import proofs.«128573_j55937654063700_1_alg».proof.Proof.Region0
import proofs.«128573_j55937654063700_1_alg».proof.Proof.Region1
import proofs.«128573_j55937654063700_1_alg».proof.Proof.HostTerms
import Idealize.ShloMosaic.Lib.StableHlo.Run

set_option maxRecDepth 16384

noncomputable section

namespace Cert.KernelIdeal.KValue

open Idealize.ShloMosaic Idealize.ShloMosaic.TcCoe Idealize.ShloMosaic.ValueIdx Idealize.ShloMosaic.StableHlo
open Idealize.SL.Sem
open Idealize.ShloMosaic.Pipeline (Dat Cfg Window)
open Cert.KernelIdeal Cert.KernelIdeal.Gen Cert.KernelIdeal.Payload Cert.KernelIdeal.HostTerms

/-- The mean over incoming edges, the kernel program's way. -/
def agg (E : IVec S2x600000 32) (X : FVec Ideal S100000x128 .f32) : FVec Ideal S100000x128 .f32 :=
  aggMul (srcVec E) (dstVec E) (recipCol (dstVec E)) X

/-- The rectified first layer. -/
def H1 (x : FVec Ideal S100000x128 .f32) (E : IVec S2x600000 32) (w1l : FVec Ideal S128x128 .f32) (b1 : FVec Ideal S128 .f32)
    (w1r : FVec Ideal S128x128 .f32) : S100000x128.Idx → EReal :=
  Cert.Sage.relu (Cert.Sage.layer (agg E x) x (wT w1l) (wT w1r) (rowVec (bRow b1)))

/-- The second layer: the network's first result. -/
def Hout (h1 : S100000x128.Idx → EReal) (E : IVec S2x600000 32) (w2l : FVec Ideal S128x128 .f32) (b2 : FVec Ideal S128 .f32)
    (w2r : FVec Ideal S128x128 .f32) : S100000x128.Idx → EReal :=
  Cert.Sage.layer (agg E h1) h1 (wT w2l) (wT w2r) (rowVec (bRow b2))

/-- The decoder of the second layer: the network's second result. -/
def Dout (h : S100000x128.Idx → EReal) (wd : FVec Ideal S128x128 .f32) (bd : FVec Ideal S128 .f32) : S100000x128.Idx → EReal :=
  Cert.Sage.decode h (wT wd) (rowVec (bRow bd))

variable (m : (ℓ : Loc nD τ sig) → Buf (Elt Ideal) ℓ) (ρ : Dev nD → PrngReg)

/-! ## The first kernel's entry contents -/

set_option maxHeartbeats 4000000 in
theorem v1_v24 (c : Dev nD) : V1 m ρ c main_v24
    = agg (m ((c : Thread nD τ).loc main_arg1)) (m ((c : Thread nD τ).loc main_arg0)) := by
  show StableHlo.after hostOps0 (W0 m ρ c) (Proc.devRef .tc main_v24) = _
  after_results_simp
  rfl
theorem v1_arg0 (c : Dev nD) : V1 m ρ c main_arg0 = m ((c : Thread nD τ).loc main_arg0) := by
  show StableHlo.after hostOps0 (W0 m ρ c) (Proc.devRef .tc main_arg0) = _
  after_results
theorem v1_v25 (c : Dev nD) : V1 m ρ c main_v25 = wT (m ((c : Thread nD τ).loc main_arg2)) := by
  show StableHlo.after hostOps0 (W0 m ρ c) (Proc.devRef .tc main_v25) = _
  after_results
  rfl
theorem v1_v26 (c : Dev nD) : V1 m ρ c main_v26 = wT (m ((c : Thread nD τ).loc main_arg4)) := by
  show StableHlo.after hostOps0 (W0 m ρ c) (Proc.devRef .tc main_v26) = _
  after_results
  rfl
theorem v1_v27 (c : Dev nD) : V1 m ρ c main_v27 = bRow (m ((c : Thread nD τ).loc main_arg3)) := by
  show StableHlo.after hostOps0 (W0 m ρ c) (Proc.devRef .tc main_v27) = _
  after_results
  rfl

/-- The first kernel leaves the rectified first layer of the arguments. -/
theorem h1_eq (c : Dev nD) : W2 m ρ c (Proc.devRef .tc main_v28)
    = H1 (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 5).trans ((Region0.final (V1 m ρ) c).trans ?_)
  unfold Region0.G H1
  rw [v1_v24, v1_arg0, v1_v25, v1_v26, v1_v27]

/-! ## Between the kernels: what the first stretch of host operations left is still there -/

theorem w2_v1 (c : Dev nD) : W2 m ρ c (Proc.devRef .tc main_v1) = srcVec (m ((c : Thread nD τ).loc main_arg1)) := by
  refine (W2_of_ne m ρ c main_v1 (by decide)).trans ?_
  show StableHlo.after hostOps0 (W0 m ρ c) (Proc.devRef .tc main_v1) = _
  after_results
  rfl
theorem w2_v3 (c : Dev nD) : W2 m ρ c (Proc.devRef .tc main_v3) = dstVec (m ((c : Thread nD τ).loc main_arg1)) := by
  refine (W2_of_ne m ρ c main_v3 (by decide)).trans ?_
  show StableHlo.after hostOps0 (W0 m ρ c) (Proc.devRef .tc main_v3) = _
  after_results
  rfl
theorem w2_v12 (c : Dev nD) : W2 m ρ c (Proc.devRef .tc main_v12) = recipCol (dstVec (m ((c : Thread nD τ).loc main_arg1))) := by
  refine (W2_of_ne m ρ c main_v12 (by decide)).trans ?_
  show StableHlo.after hostOps0 (W0 m ρ c) (Proc.devRef .tc main_v12) = _
  after_results
  rfl
theorem w2_arg (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0
theorem w2_arg5 (c : Dev nD) : W2 m ρ c (Proc.devRef .tc main_arg5) = m ((c : Thread nD τ).loc main_arg5) :=
  w2_arg m ρ c main_arg5 (by decide) (by after_results)
theorem w2_arg6 (c : Dev nD) : W2 m ρ c (Proc.devRef .tc main_arg6) = m ((c : Thread nD τ).loc main_arg6) :=
  w2_arg m ρ c main_arg6 (by decide) (by after_results)
theorem w2_arg7 (c : Dev nD) : W2 m ρ c (Proc.devRef .tc main_arg7) = m ((c : Thread nD τ).loc main_arg7) :=
  w2_arg m ρ c main_arg7 (by decide) (by after_results)
theorem w2_arg8 (c : Dev nD) : W2 m ρ c (Proc.devRef .tc main_arg8) = m ((c : Thread nD τ).loc main_arg8) :=
  w2_arg m ρ c main_arg8 (by decide) (by after_results)
theorem w2_arg9 (c : Dev nD) : W2 m ρ c (Proc.devRef .tc main_arg9) = m ((c : Thread nD τ).loc main_arg9) :=
  w2_arg m ρ c main_arg9 (by decide) (by after_results)

/-! ## The second kernel's entry contents -/

theorem v3_v40 (c : Dev nD) : V3 m ρ c main_v40
    = aggMul (W2 m ρ c (Proc.devRef .tc main_v1)) (W2 m ρ c (Proc.devRef .tc main_v3)) (W2 m ρ c (Proc.devRef .tc main_v12))
        (W2 m ρ c (Proc.devRef .tc main_v28)) := by
  show StableHlo.after hostOps1 (W2 m ρ c) (Proc.devRef .tc main_v40) = _
  after_results
  rfl
theorem v3_v28 (c : Dev nD) : V3 m ρ c main_v28 = W2 m ρ c (Proc.devRef .tc main_v28) := by
  show StableHlo.after hostOps1 (W2 m ρ c) (Proc.devRef .tc main_v28) = _
  after_results
theorem v3_v41 (c : Dev nD) : V3 m ρ c main_v41 = wT (W2 m ρ c (Proc.devRef .tc main_arg5)) := by
  show StableHlo.after hostOps1 (W2 m ρ c) (Proc.devRef .tc main_v41) = _
  after_results
  rfl
theorem v3_v42 (c : Dev nD) : V3 m ρ c main_v42 = wT (W2 m ρ c (Proc.devRef .tc main_arg7)) := by
  show StableHlo.after hostOps1 (W2 m ρ c) (Proc.devRef .tc main_v42) = _
  after_results
  rfl
theorem v3_v43 (c : Dev nD) : V3 m ρ c main_v43 = bRow (W2 m ρ c (Proc.devRef .tc main_arg6)) := by
  show StableHlo.after hostOps1 (W2 m ρ c) (Proc.devRef .tc main_v43) = _
  after_results
  rfl
theorem v3_v44 (c : Dev nD) : V3 m ρ c main_v44 = wT (W2 m ρ c (Proc.devRef .tc main_arg8)) := by
  show StableHlo.after hostOps1 (W2 m ρ c) (Proc.devRef .tc main_v44) = _
  after_results
  rfl
theorem v3_v45 (c : Dev nD) : V3 m ρ c main_v45 = bRow (W2 m ρ c (Proc.devRef .tc main_arg9)) := by
  show StableHlo.after hostOps1 (W2 m ρ c) (Proc.devRef .tc main_v45) = _
  after_results
  rfl

/-- The network's two results, from the launch memory. -/
abbrev outH (c : Dev nD) : S100000x128.Idx → EReal :=
  Hout (H1 (m ((c : Thread nD τ).loc main_arg0)) (m ((c : Thread nD τ).loc main_arg1)) (m ((c : Thread nD τ).loc main_arg2))
      (m ((c : Thread nD τ).loc main_arg3)) (m ((c : Thread nD τ).loc main_arg4)))
    (m ((c : Thread nD τ).loc main_arg1)) (m ((c : Thread nD τ).loc main_arg5)) (m ((c : Thread nD τ).loc main_arg6))
    (m ((c : Thread nD τ).loc main_arg7))
abbrev outD (c : Dev nD) : S100000x128.Idx → EReal :=
  Dout (outH m c) (m ((c : Thread nD τ).loc main_arg8)) (m ((c : Thread nD τ).loc main_arg9))

theorem gh_eq (c : Dev nD) : Region1.Gh (V3 m ρ) c = outH m c := by
  unfold Region1.Gh outH Hout agg
  rw [v3_v40, v3_v28, v3_v41, v3_v42, v3_v43, w2_v1, w2_v3, w2_v12, h1_eq, w2_arg5, w2_arg6, w2_arg7]

theorem final_h (c : Dev nD) : W4 m ρ c (Proc.devRef .tc main_v46_0) = outH m c :=
  (W4_arr m ρ c 7).trans ((Region1.final7 (V3 m ρ) c).trans (gh_eq m ρ c))

theorem final_d (c : Dev nD) : W4 m ρ c (Proc.devRef .tc main_v46_1) = outD m c := by
  refine (W4_arr m ρ c 8).trans ((Region1.final8 (V3 m ρ) c).trans ?_)
  unfold Region1.Gd outD Dout
  rw [gh_eq, v3_v44, v3_v45, w2_arg8, w2_arg9]

/-- The idealized kernel's run: each result at its function of the arguments, the arguments unchanged. -/
theorem run : θ_run defs (onTc (τ := τ) (main (F := Ideal))) ⟨m, fun _ => 0, ρ⟩ (fun r => ∀ c : Dev nD,
      r.2.mem ((c.tc : Thread nD τ).loc main_v46_0) = outH m c
      ∧ r.2.mem ((c.tc : Thread nD τ).loc main_v46_1) = outD m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(KRun.read_final m ρ h c main_v46_0 (by decide)).trans (final_h m ρ c),
     (KRun.read_final m ρ h c main_v46_1 (by decide)).trans (final_d m ρ c),
     (KRun.read_final m ρ h c main_arg0 (by decide)).trans (W4_main_arg0 m ρ c),
     (KRun.read_final m ρ h c main_arg1 (by decide)).trans (W4_main_arg1 m ρ c),
     (KRun.read_final m ρ h c main_arg2 (by decide)).trans (W4_main_arg2 m ρ c),
     (KRun.read_final m ρ h c main_arg3 (by decide)).trans (W4_main_arg3 m ρ c),
     (KRun.read_final m ρ h c main_arg4 (by decide)).trans (W4_main_arg4 m ρ c),
     (KRun.read_final m ρ h c main_arg5 (by decide)).trans (W4_main_arg5 m ρ c),
     (KRun.read_final m ρ h c main_arg6 (by decide)).trans (W4_main_arg6 m ρ c),
     (KRun.read_final m ρ h c main_arg7 (by decide)).trans (W4_main_arg7 m ρ c),
     (KRun.read_final m ρ h c main_arg8 (by decide)).trans (W4_main_arg8 m ρ c),
     (KRun.read_final m ρ h c main_arg9 (by decide)).trans (W4_main_arg9 m ρ c)⟩)
    (KRun.run_all m ρ)

end Cert.KernelIdeal.KValue

end
-- ==== Proof.RefValue.lean ====
/-
  The reference's two results as the same functions of the arguments.

  The reference computes, twice, the mean over incoming edges as the sums divided by `max degree 1`, each time
  followed by a layer spelt `(A·Wl + b) + X·Wr`; a rectifier between the two; and the decoder.  Named piece by piece,
  its run's result terms are these compositions, and each layer is the entry-by-entry `layer` / `relu` / `decode`.
-/
import proofs.«128573_j55937654063700_1_alg».proof.Proof.Gen.ReferenceIdeal.Run
import proofs.«128573_j55937654063700_1_alg».proof.Proof.SageLayer

set_option maxRecDepth 16384

noncomputable section

namespace Cert.ReferenceIdeal.RefTerms

open Idealize.ShloMosaic Idealize.ShloMosaic.TcCoe Idealize.SL.Sem Cert.ReferenceIdeal Cert.ReferenceIdeal.Gen

def srcVec (E : IVec S2x600000 32) : IVec S600000 32 :=
  shapeCast S600000 (extractStridedSlice S1x600000 ![0, 0] E slices_S2x600000_S1x600000_0_0) shapeCasts_S1x600000_S600000
def dstVec (E : IVec S2x600000 32) : IVec S600000 32 :=
  shapeCast S600000 (extractStridedSlice S1x600000 ![1, 0] E slices_S2x600000_S1x600000_1_0) shapeCasts_S1x600000_S600000
def srcCol (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)
def dstCol (d : IVec S600000 32) : IVec S600000x1 32 :=
  broadcastInDim S600000x1 ![0] bcast_S600000_S600000x1_0 d
def summed (s d : IVec S600000 32) (X : FVec Ideal S100000x128 .f32) : FVec Ideal S100000x128 .f32 :=
  Host.scatterAdd scatter_S100000x128_S600000x1_S600000x128_1_0_0_1
    (broadcastInDim S100000x128 ![] bcast_S_S100000x128 (constant (F := Ideal) S_ .f32 0x00000000#32)) (dstCol d)
    (Host.gather gather_S100000x128_S600000x1_S600000x128_1_0_n_n_0_1_1128 X (srcCol s))
def degree (d : IVec S600000 32) : FVec Ideal S100000 .f32 :=
  Host.scatterAdd scatter_S100000_S600000x1_S600000_n_0_0_1
    (broadcastInDim S100000 ![] bcast_S_S100000 (constant (F := Ideal) S_ .f32 0x00000000#32)) (dstCol d)
    (broadcastInDim S600000 ![] bcast_S_S600000 (constant (F := Ideal) S_ .f32 0x3F800000#32))
def degree1 (d : IVec S600000 32) : FVec Ideal S100000 .f32 :=
  maximumf (degree d) (broadcastInDim S100000 ![] bcast_S_S100000 (constant (F := Ideal) S_ .f32 0x3F800000#32))
/-- The mean over incoming edges: the sums divided, row by row, by `max degree 1`. -/
def aggDiv (s d : IVec S600000 32) (X : FVec Ideal S100000x128 .f32) : FVec Ideal S100000x128 .f32 :=
  Host.divf (summed s d X)
    (broadcastInDim S100000x128 ![0, 1] bcast_S100000x1_S100000x128_0_1
      (broadcastInDim S100000x1 ![0] bcast_S100000_S100000x1_0 (degree1 d)))
def wT (W : FVec Ideal S128x128 .f32) : FVec Ideal S128x128 .f32 :=
  transpose S128x128 [1, 0] W transposes_S128x128_S128x128_1_0
/-- A bias vector broadcast to one row, then down all rows. -/
def biasRows (b : FVec Ideal S128 .f32) : FVec Ideal S100000x128 .f32 :=
  broadcastInDim S100000x128 ![0, 1] bcast_S1x128_S100000x128_0_1 (broadcastInDim S1x128 ![1] bcast_S128_S1x128_1 b)

/-- One SAGE convolution as the reference spells it. -/
def conv (X : FVec Ideal S100000x128 .f32) (E : IVec S2x600000 32) (wl : FVec Ideal S128x128 .f32) (b : FVec Ideal S128 .f32)
    (wr : FVec Ideal S128x128 .f32) : FVec Ideal S100000x128 .f32 :=
  addf (addf (Host.dotGeneral dot_S100000x128_S128x128_S100000x128_1_0_0_1_n_n none (aggDiv (srcVec E) (dstVec E) X) (wT wl))
      (biasRows b))
    (Host.dotGeneral dot_S100000x128_S128x128_S100000x128_1_0_0_1_n_n none X (wT wr))
def rect (Y : FVec Ideal S100000x128 .f32) : FVec Ideal S100000x128 .f32 :=
  maximumf Y (broadcastInDim S100000x128 ![] bcast_S_S100000x128 (constant (F := Ideal) S_ .f32 0x00000000#32))
def lin (H : FVec Ideal S100000x128 .f32) (wd : FVec Ideal S128x128 .f32) (b : FVec Ideal S128 .f32) : FVec Ideal S100000x128 .f32 :=
  addf (Host.dotGeneral dot_S100000x128_S128x128_S100000x128_1_0_0_1_n_n none H (wT wd)) (biasRows b)

/-- The reference's first result. -/
def out0 (x : FVec Ideal S100000x128 .f32) (E : IVec S2x600000 32) (w1l : FVec Ideal S128x128 .f32) (b1 : FVec Ideal S128 .f32)
    (w1r w2l : FVec Ideal S128x128 .f32) (b2 : FVec Ideal S128 .f32) (w2r : FVec Ideal S128x128 .f32) : FVec Ideal S100000x128 .f32 :=
  conv (rect (conv x E w1l b1 w1r)) E w2l b2 w2r

variable (m : (ℓ : Loc nD τ sig) → Buf (Elt Ideal) ℓ)

/-- The run's first result term is that composition. -/
theorem res0_eq (c : Dev nD) : Cert.ReferenceIdeal.Value.res_main_v58 (F := Ideal) m c
    = out0 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  unfold Cert.ReferenceIdeal.Value.res_main_v58
  rfl

/-- The run's second result term is the decoder of the first. -/
theorem res1_eq (c : Dev nD) : Cert.ReferenceIdeal.Value.res_main_v63 (F := Ideal) m c
    = lin (out0 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)))
        (m ((c.tc : Thread nD τ).loc main_arg8)) (m ((c.tc : Thread nD τ).loc main_arg9)) := by
  unfold Cert.ReferenceIdeal.Value.res_main_v63
  rfl

/-- A convolution is the entry-by-entry layer of the divided sums. -/
theorem conv_eq (X : FVec Ideal S100000x128 .f32) (E : IVec S2x600000 32) (wl : FVec Ideal S128x128 .f32) (b : FVec Ideal S128 .f32)
    (wr : FVec Ideal S128x128 .f32) :
    conv X E wl b wr = Cert.Sage.layer (aggDiv (srcVec E) (dstVec E) X) X (wT wl) (wT wr) b :=
  Cert.Sage.host_layer dot_S100000x128_S128x128_S100000x128_1_0_0_1_n_n rfl _ X (wT wl) (wT wr) b _ _

theorem rect_eq (Y : FVec Ideal S100000x128 .f32) : rect Y = Cert.Sage.relu Y :=
  Cert.Sage.host_relu _ Y

theorem lin_eq (H : FVec Ideal S100000x128 .f32) (wd : FVec Ideal S128x128 .f32) (b : FVec Ideal S128 .f32) :
    lin H wd b = Cert.Sage.decode H (wT wd) b :=
  Cert.Sage.host_decode dot_S100000x128_S128x128_S100000x128_1_0_0_1_n_n rfl H (wT wd) b _ _

end Cert.ReferenceIdeal.RefTerms

end
-- ==== Proof.Bridge.lean ====
/-
  The two programs compute one function.

  Both programs build the same columns of source and destination rows, the same sums over incoming edges and the same
  degree vector, with the same host operations; the kernel's program scales the sums by the reciprocal column, which
  is the reference's division (the degree is real).  Each kernel block is the reference's layer restricted to its rows,
  and a bias vector cast to one row has that vector as its row.  So the kernel's two result arrays are the reference's.
-/
import proofs.«128573_j55937654063700_1_alg».proof.Proof.KernelValue
import proofs.«128573_j55937654063700_1_alg».proof.Proof.RefValue

set_option maxRecDepth 16384

noncomputable section

namespace Cert.Bridge

open Idealize.ShloMosaic

/-! ## The reference's pieces are the kernel program's pieces -/

theorem srcVec_eq (E : IVec Cert.KernelIdeal.S2x600000 32) :
    Cert.ReferenceIdeal.RefTerms.srcVec E = Cert.KernelIdeal.HostTerms.srcVec E := rfl
theorem dstVec_eq (E : IVec Cert.KernelIdeal.S2x600000 32) :
    Cert.ReferenceIdeal.RefTerms.dstVec E = Cert.KernelIdeal.HostTerms.dstVec E := rfl
theorem srcCol_eq (s : IVec Cert.KernelIdeal.S600000 32) :
    Cert.ReferenceIdeal.RefTerms.srcCol s = Cert.KernelIdeal.HostTerms.srcCol s := rfl
theorem dstCol_eq (d : IVec Cert.KernelIdeal.S600000 32) :
    Cert.ReferenceIdeal.RefTerms.dstCol d = Cert.KernelIdeal.HostTerms.dstCol d := rfl
theorem summed_eq (s d : IVec Cert.KernelIdeal.S600000 32) (X : FVec Ideal Cert.KernelIdeal.S100000x128 .f32) :
    Cert.ReferenceIdeal.RefTerms.summed s d X = Cert.KernelIdeal.HostTerms.summed s d X := by
  unfold Cert.ReferenceIdeal.RefTerms.summed Cert.KernelIdeal.HostTerms.summed
  rw [srcCol_eq, dstCol_eq]
  rfl
theorem degree1_eq (d : IVec Cert.KernelIdeal.S600000 32) :
    Cert.ReferenceIdeal.RefTerms.degree1 d = Cert.KernelIdeal.HostTerms.degree1 d := by
  unfold Cert.ReferenceIdeal.RefTerms.degree1 Cert.KernelIdeal.HostTerms.degree1
    Cert.ReferenceIdeal.RefTerms.degree Cert.KernelIdeal.HostTerms.degree
  rw [dstCol_eq]
  rfl
theorem aggDiv_eq (s d : IVec Cert.KernelIdeal.S600000 32) (X : FVec Ideal Cert.KernelIdeal.S100000x128 .f32) :
    Cert.ReferenceIdeal.RefTerms.aggDiv s d X = Cert.KernelIdeal.HostTerms.aggDiv s d X := by
  unfold Cert.ReferenceIdeal.RefTerms.aggDiv Cert.KernelIdeal.HostTerms.aggDiv
  rw [summed_eq, degree1_eq]
theorem wT_eq (W : FVec Ideal Cert.KernelIdeal.S128x128 .f32) :
    Cert.ReferenceIdeal.RefTerms.wT W = Cert.KernelIdeal.HostTerms.wT W := rfl

/-- A bias vector as one row has that vector as its row. -/
theorem rowVec_bRow (b : FVec Ideal Cert.KernelIdeal.S128 .f32) :
    Cert.KernelIdeal.Payload.rowVec (Cert.KernelIdeal.HostTerms.bRow b) = b :=
  Cert.KernelIdeal.Payload.rowVec_shapeCast b _

/-- The kernel program's mean is the reference's. -/
theorem agg_eq (E : IVec Cert.KernelIdeal.S2x600000 32) (X : FVec Ideal Cert.KernelIdeal.S100000x128 .f32) :
    Cert.KernelIdeal.KValue.agg E X
      = Cert.ReferenceIdeal.RefTerms.aggDiv (Cert.ReferenceIdeal.RefTerms.srcVec E) (Cert.ReferenceIdeal.RefTerms.dstVec E) X := by
  unfold Cert.KernelIdeal.KValue.agg
  rw [Cert.KernelIdeal.HostTerms.aggMul_recip, srcVec_eq, dstVec_eq, aggDiv_eq]

/-! ## The results -/

/-- The rectified first layer. -/
theorem h1_eq (x : FVec Ideal Cert.KernelIdeal.S100000x128 .f32) (E : IVec Cert.KernelIdeal.S2x600000 32)
    (w1l : FVec Ideal Cert.KernelIdeal.S128x128 .f32) (b1 : FVec Ideal Cert.KernelIdeal.S128 .f32)
    (w1r : FVec Ideal Cert.KernelIdeal.S128x128 .f32) :
    Cert.ReferenceIdeal.RefTerms.rect (Cert.ReferenceIdeal.RefTerms.conv x E w1l b1 w1r)
      = Cert.KernelIdeal.KValue.H1 x E w1l b1 w1r := by
  unfold Cert.KernelIdeal.KValue.H1
  rw [Cert.ReferenceIdeal.RefTerms.rect_eq, Cert.ReferenceIdeal.RefTerms.conv_eq, agg_eq, rowVec_bRow, wT_eq, wT_eq]

/-- The second layer from ANY hidden features. -/
theorem hout_eq (h1 : FVec Ideal Cert.KernelIdeal.S100000x128 .f32) (E : IVec Cert.KernelIdeal.S2x600000 32)
    (w2l : FVec Ideal Cert.KernelIdeal.S128x128 .f32) (b2 : FVec Ideal Cert.KernelIdeal.S128 .f32)
    (w2r : FVec Ideal Cert.KernelIdeal.S128x128 .f32) :
    Cert.ReferenceIdeal.RefTerms.conv h1 E w2l b2 w2r = Cert.KernelIdeal.KValue.Hout h1 E w2l b2 w2r := by
  unfold Cert.KernelIdeal.KValue.Hout
  rw [Cert.ReferenceIdeal.RefTerms.conv_eq, agg_eq, rowVec_bRow, wT_eq, wT_eq]

/-- The decoder of ANY features. -/
theorem dout_eq (h : FVec Ideal Cert.KernelIdeal.S100000x128 .f32) (wd : FVec Ideal Cert.KernelIdeal.S128x128 .f32)
    (bd : FVec Ideal Cert.KernelIdeal.S128 .f32) :
    Cert.ReferenceIdeal.RefTerms.lin h wd bd = Cert.KernelIdeal.KValue.Dout h wd bd := by
  unfold Cert.KernelIdeal.KValue.Dout
  rw [Cert.ReferenceIdeal.RefTerms.lin_eq, rowVec_bRow, wT_eq]

/-- The reference's first result is the kernel's. -/
theorem out0_eq (x : FVec Ideal Cert.KernelIdeal.S100000x128 .f32) (E : IVec Cert.KernelIdeal.S2x600000 32)
    (w1l : FVec Ideal Cert.KernelIdeal.S128x128 .f32) (b1 : FVec Ideal Cert.KernelIdeal.S128 .f32)
    (w1r w2l : FVec Ideal Cert.KernelIdeal.S128x128 .f32) (b2 : FVec Ideal Cert.KernelIdeal.S128 .f32)
    (w2r : FVec Ideal Cert.KernelIdeal.S128x128 .f32) :
    Cert.ReferenceIdeal.RefTerms.out0 x E w1l b1 w1r w2l b2 w2r
      = Cert.KernelIdeal.KValue.Hout (Cert.KernelIdeal.KValue.H1 x E w1l b1 w1r) E w2l b2 w2r := by
  unfold Cert.ReferenceIdeal.RefTerms.out0
  rw [h1_eq, hout_eq]

end Cert.Bridge

end
-- ==== Proof.lean ====
/-
  A two-layer GraphSAGE network with mean aggregation and a linear decoder: the tiled kernel program against the
  plain reference, on the extended reals.

  Both programs gather each edge's source features and scatter-add them at the edge's destination, with the same
  index columns, and both divide each node's sum by `max degree 1` — the kernel's program by multiplying with the
  reciprocal, which is the same number because the degree is a finite count.  Each layer is
  `(∑_q A(r,q)·Wl(q,j) + ∑_q X(r,q)·Wr(q,j)) + b(j)`: the kernels compute it 5000 rows at a time with products into
  zero accumulators (a change of float format being the identity), the reference with two whole products and the bias
  added between them; addition on the extended reals is commutative and associative.  The second kernel also applies
  the decoder to the rows it has just computed.  The 20 row blocks of each kernel cover its output arrays, so every
  result array is one function of the arguments, the same for both programs.

  The three frames are the generated ones (the reference's is its run with the results dropped); nothing was
  rewritten between the kernel and its idealization, so that conjunct is trivial.
-/
import proofs.«128573_j55937654063700_1_alg».proof.Defs
import proofs.«128573_j55937654063700_1_alg».proof.Proof.Gen.Kernel
import proofs.«128573_j55937654063700_1_alg».proof.Proof.Gen.Kernel.Frame
import proofs.«128573_j55937654063700_1_alg».proof.Proof.Gen.KernelIdeal
import proofs.«128573_j55937654063700_1_alg».proof.Proof.Gen.KernelIdeal.Frame
import proofs.«128573_j55937654063700_1_alg».proof.Proof.Gen.ReferenceIdeal
import proofs.«128573_j55937654063700_1_alg».proof.Proof.Gen.ReferenceIdeal.Run
import proofs.«128573_j55937654063700_1_alg».proof.Proof.Gen.Pre_finite_inputs
import proofs.«128573_j55937654063700_1_alg».proof.Proof.KernelValue
import proofs.«128573_j55937654063700_1_alg».proof.Proof.RefValue
import proofs.«128573_j55937654063700_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the second layer and its decoding, as one pair
    of functions of the arguments. -/
theorem algebraic : Cert.algebraic_KernelIdeal_ReferenceIdeal := by
  intro m ρ m' ρ' _ hagree
  refine ⟨fun c => Cert.KernelIdeal.KValue.outH m c, fun c => Cert.KernelIdeal.KValue.outD m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.RefTerms.res0_eq, a0, a1, a2, a3, a4, a5, a6, a7]
    exact Cert.Bridge.out0_eq _ _ _ _ _ _ _ _
  · obtain ⟨a0, a1, a2, a3, a4, a5, a6, a7, a8, a9⟩ := hagree c
    rw [Cert.ReferenceIdeal.RefTerms.res1_eq, a0, a1, a2, a3, a4, a5, a6, a7, a8, a9, Cert.Bridge.out0_eq]
    exact Cert.Bridge.dout_eq _ _ _

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
